-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S8x4096 : Shape := ⟨2, ![8, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096 .f32) (main_arg5 : FVec F S8x4096 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x4096 .f32 := Host.absf main_arg4
  let main_cst_6 : FVec F S_ .f32 := constant S_ .f32 0x7F800000#32
  let main_v20 : FVec F S8x4096 .f32 := broadcastInDim S8x4096 ![] bcast_S_S8x4096 main_cst_6
  let main_v21 : IVec S8x4096 1 := cmpf .olt main_v19 main_v20
  let main_c_7 : IVec S_ 1 := constantI S_ 1 1#1
  let main_v22 : IVec S_ 1 := (fun x v => Host.reduce IntOp.andi x v reducesTo_S8x4096_S_d0_1 h_S_) main_v21 main_c_7
  let main_v23 : IVec S_ 1 := andi main_v18 main_v22
  let main_v24 : FVec F S8x4096 .f32 := Host.absf main_arg5
  let main_cst_8 : FVec F S_ .f32 := constant S_ .f32 0x7F800000#32
  let main_v25 : FVec F S8x4096 .f32 := broadcastInDim S8x4096 ![] bcast_S_S8x4096 main_cst_8
  let main_v26 : IVec S8x4096 1 := cmpf .olt main_v24 main_v25
  let main_c_9 : IVec S_ 1 := constantI S_ 1 1#1
  let main_v27 : IVec S_ 1 := (fun x v => Host.reduce IntOp.andi x v reducesTo_S8x4096_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S8x4096 .f32) (main_arg4 : FVec F S8x4096 .f32) (main_arg5 : FVec F S8x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8x4096 : Shape := ⟨2, ![8, 4096]⟩
abbrev S8192x4096 : Shape := ⟨2, ![8192, 4096]⟩
abbrev S1x4096 : Shape := ⟨2, ![1, 4096]⟩
abbrev S4096x8 : Shape := ⟨2, ![4096, 8]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S256x4096 : Shape := ⟨2, ![256, 4096]⟩
abbrev S1024x4096 : Shape := ⟨2, ![1024, 4096]⟩
abbrev S1x1024 : Shape := ⟨2, ![1, 1024]⟩
abbrev S256x8 : Shape := ⟨2, ![256, 8]⟩
abbrev S8x1024 : Shape := ⟨2, ![8, 1024]⟩
abbrev S256x1024 : Shape := ⟨2, ![256, 1024]⟩

abbrev nBuf : Space → Nat
  | .hbm => 28
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S8x4096, .f32⟩
  | .hbm, ⟨5, _⟩ => ⟨S8x4096, .f32⟩
  | .hbm, ⟨6, _⟩ => ⟨S8192x4096, .f32⟩
  | .hbm, ⟨7, _⟩ => ⟨S1x4096, .f32⟩
  | .hbm, ⟨8, _⟩ => ⟨S4096x8, .f32⟩
  | .hbm, ⟨9, _⟩ => ⟨S8192x8, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x8, .f32⟩
  | .hbm, ⟨23, _⟩ => ⟨S8192x8, .f32⟩
  | .hbm, ⟨24, _⟩ => ⟨S4096x4096, .f32⟩
  | .hbm, ⟨25, _⟩ => ⟨S4096x4096, .bf16⟩
  | .hbm, ⟨26, _⟩ => ⟨S8192x4096, .f32⟩
  | .hbm, ⟨27, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S256x8, .f32⟩
  | .local _ .vmem, ⟨7, _⟩ => ⟨S256x8, .f32⟩
  | .local _ .vmem, ⟨8, _⟩ => ⟨S8x4096, .f32⟩
  | .local _ .vmem, ⟨9, _⟩ => ⟨S8x1024, .f32⟩
  | .local _ .vmem, ⟨10, _⟩ => ⟨S8x1024, .f32⟩
  | .local _ .vmem, ⟨11, _⟩ => ⟨S256x1024, .f32⟩
  | .local _ .vmem, ⟨12, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  shapeCasts_S4096_S1x4096 : S4096.ShapeCasts S1x4096
  transposes_S8x4096_S4096x8_1_0 : S8x4096.Transposes [1, 0] S4096x8
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8x4096_S8x4096_0_0 : ∀ a, (![0, 0] : Fin 2 → Nat) a + S8x4096.size a ≤ S8x4096.size a
  h_S8x4096 : 0 < S8x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S8x1024_S8x1024_0_0 : ∀ a, (![0, 0] : Fin 2 → Nat) a + S8x1024.size a ≤ S8x1024.size a
  h_S8x1024 : 0 < S8x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192x4096_S4x2048x4096 : S8192x4096.ShapeCasts S4x2048x4096
  dot_S8192x4096_S4096x8_S8192x8_1_0_0_1_n_n_wf : DotDims.WF S8192x4096 S4096x8 S8192x8 [1] [0] [0] [1] [] []
  dot_S256x8_S8x4096_S256x4096_1_0_0_1_n_n_wf : DotDims.WF S256x8 S8x4096 S256x4096 [1] [0] [0] [1] [] []
  dot_S256x4096_S1024x4096_S256x1024_1_1_0_0_n_n_wf : DotDims.WF S256x4096 S1024x4096 S256x1024 [1] [1] [0] [0] [] []
  dot_S256x8_S8x1024_S256x1024_1_0_0_1_n_n_wf : DotDims.WF S256x8 S8x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S8192x8.size a
  hwx0_3 : ∀ i : grid0.Coords, EltTy.bits .f32 = 32 ∨ (Rect.block (s := S8192x8) S256x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x4096.size a ≤ S8x4096.size a
  hwx0_4 : ∀ i : grid0.Coords, EltTy.bits .f32 = 32 ∨ (Rect.block (s := S8x4096) S8x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S8x4096.size a
  hwx0_5 : ∀ i : grid0.Coords, EltTy.bits .f32 = 32 ∨ (Rect.block (s := S8x4096) S8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x4096.size a
  hwx0_6 : ∀ i : grid0.Coords, EltTy.bits .f32 = 32 ∨ (Rect.block (s := S8192x4096) S256x1024.size (cc0_transform_6 i) (hinb0_6 i)).WholeWords (EltTy.packing .f32)

variable [Facts₀]

def dot_S8192x4096_S4096x8_S8192x8_1_0_0_1_n_n : DotDims S8192x4096 S4096x8 S8192x8 where
  lhsContracting := [1]
  rhsContracting := [0]
  lhsNonContracting := [0]
  rhsNonContracting := [1]
  lhsBatch := []
  rhsBatch := []
  wf := dot_S8192x4096_S4096x8_S8192x8_1_0_0_1_n_n_wf
def dot_S256x8_S8x4096_S256x4096_1_0_0_1_n_n : DotDims S256x8 S8x4096 S256x4096 where
  lhsContracting := [1]
  rhsContracting := [0]
  lhsNonContracting := [0]
  rhsNonContracting := [1]
  lhsBatch := []
  rhsBatch := []
  wf := dot_S256x8_S8x4096_S256x4096_1_0_0_1_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x8_S8x1024_S256x1024_1_0_0_1_n_n : DotDims S256x8 S8x1024 S256x1024 where
  lhsContracting := [1]
  rhsContracting := [0]
  lhsNonContracting := [0]
  rhsNonContracting := [1]
  lhsBatch := []
  rhsBatch := []
  wf := dot_S256x8_S8x1024_S256x1024_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8x4096 : Shape := ⟨2, ![8, 4096]⟩
abbrev S8192x4096 : Shape := ⟨2, ![8192, 4096]⟩
abbrev S4096x8 : Shape := ⟨2, ![4096, 8]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S8x4096, .f32⟩
  | .hbm, ⟨5, _⟩ => ⟨S8x4096, .f32⟩
  | .hbm, ⟨6, _⟩ => ⟨S8192x4096, .f32⟩
  | .hbm, ⟨7, _⟩ => ⟨S4096x8, .f32⟩
  | .hbm, ⟨8, _⟩ => ⟨S8192x8, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8, .f32⟩
  | .hbm, ⟨22, _⟩ => ⟨S8192x8, .f32⟩
  | .hbm, ⟨23, _⟩ => ⟨S8192x4096, .f32⟩
  | .hbm, ⟨24, _⟩ => ⟨S8192x4096, .f32⟩
  | .hbm, ⟨25, _⟩ => ⟨S4096x4096, .f32⟩
  | .hbm, ⟨26, _⟩ => ⟨S8192x4096, .f32⟩
  | .hbm, ⟨27, _⟩ => ⟨S4096x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S8x4096_S4096x8_1_0 : S8x4096.Transposes [1, 0] S4096x8
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x8_S8192x8_1_0_0_1_n_n_wf : DotDims.WF S8192x4096 S4096x8 S8192x8 [1] [0] [0] [1] [] []
  dot_S8192x8_S8x4096_S8192x4096_1_0_0_1_n_n_wf : DotDims.WF S8192x8 S8x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x8_S8192x8_1_0_0_1_n_n : DotDims S8192x4096 S4096x8 S8192x8 where
  lhsContracting := [1]
  rhsContracting := [0]
  lhsNonContracting := [0]
  rhsNonContracting := [1]
  lhsBatch := []
  rhsBatch := []
  wf := dot_S8192x4096_S4096x8_S8192x8_1_0_0_1_n_n_wf
def dot_S8192x8_S8x4096_S8192x4096_1_0_0_1_n_n : DotDims S8192x8 S8x4096 S8192x4096 where
  lhsContracting := [1]
  rhsContracting := [0]
  lhsNonContracting := [0]
  rhsNonContracting := [1]
  lhsBatch := []
  rhsBatch := []
  wf := dot_S8192x8_S8x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.TileValue.lean ====
/-
  What one tile of the kernel computes, read at an entry.

  At a grid point the body holds a block of 256 rows of activations x[p, ·], the rows' routing weights ρ[p, ·] over the 8
  experts, the whole input-scale table a[e, ·], a block of 1024 rows of signed weights w[q, ·], the matching 1024 columns of
  the output-scale table c[e, ·] and of the bias β[·].  It forms ρ·a, scales x by it entry by entry, contracts the result
  with w along the channel axis, scales by ρ·c and adds the bias row.  Over the extended reals the narrowing of a factor
  to a shorter float format changes nothing and each matrix product from the zero splat is its sum, so entry (p, q) of
  the tile is

      ( Σ_h ( x[p,h] · Σ_e ρ[p,e]·a[e,h] ) · w[q,h] ) · ( Σ_e ρ[p,e]·c[e,q] ) + β[q].
-/
import proofs.«117203_j28982439313533_2_alg».proof.Proof.Gen.KernelIdeal.Skeleton
import proofs.«117203_j28982439313533_2_alg».proof.Proof.LibDotInner
import proofs.«117203_j28982439313533_2_alg».proof.Proof.LibDotLastAxes
import Idealize.ShloMosaic.Lib.Pipeline.Value
import Idealize.ShloMosaic.Lib.ValueLayout

noncomputable section

open scoped BigOperators

namespace Cert.RoutedLayer.Tile

open Cert.KernelIdeal Cert.KernelIdeal.Gen Idealize.ShloMosaic Idealize.ShloMosaic.ValueIdx

/-! ## The three contractions' operand coordinates -/

section InScale
/-- ρ·a : [256, 8] against [8, 4096]. -/
local notation "Din" => dot_S256x8_S8x4096_S256x4096_1_0_0_1_n_n

theorem in_l0 (j : S256x4096.Idx) (q : (Din).contr.Idx) : ((Din).lhsIdx j q 0).val = (j 0).val := by
  unfold DotDims.lhsIdx
  rw [dif_neg (show ¬(0 : Fin S256x8.rank) ∈ (Din).lhsBatch by decide), dif_pos (show (0 : Fin S256x8.rank) ∈ (Din).lhsNonContracting by decide)]
  rfl
theorem in_l1 (j : S256x4096.Idx) (q : (Din).contr.Idx) : ((Din).lhsIdx j q 1).val = (q ⟨0, by decide⟩).val :=
  (Din).lhsIdx_val_of_single rfl j q
theorem in_r0 (j : S256x4096.Idx) (q : (Din).contr.Idx) : ((Din).rhsIdx j q 0).val = (q ⟨0, by decide⟩).val :=
  (Din).rhsIdx_val_of_single rfl j q
theorem in_r1 (j : S256x4096.Idx) (q : (Din).contr.Idx) : ((Din).rhsIdx j q 1).val = (j 1).val := by
  unfold DotDims.rhsIdx
  rw [dif_neg (show ¬(1 : Fin S8x4096.rank) ∈ (Din).rhsBatch by decide), dif_pos (show (1 : Fin S8x4096.rank) ∈ (Din).rhsNonContracting by decide)]
  rfl

/-- The input scale of the tile's row p at channel h. -/
theorem inScale_apply {φ₁ φ₂ : FTy} (L : FVec Ideal S256x8 φ₁) (A : FVec Ideal S8x4096 φ₂) (p : Fin 256) (h : Fin 4096) :
    FloatOps.matmul (Din) none L A (constant (F := Ideal) S256x4096 .f32 0x00000000#32) (ix2 p h)
      = ∑ e : Fin 8, L (ix2 p e) * A (ix2 e h) :=
  DotInner.matmul_zero_apply (Din) rfl rfl in_l0 in_l1 in_r0 in_r1 none L A p h
end InScale

section OutScale
/-- ρ·c : [256, 8] against [8, 1024]. -/
local notation "Dout" => dot_S256x8_S8x1024_S256x1024_1_0_0_1_n_n

theorem out_l0 (j : S256x1024.Idx) (q : (Dout).contr.Idx) : ((Dout).lhsIdx j q 0).val = (j 0).val := by
  unfold DotDims.lhsIdx
  rw [dif_neg (show ¬(0 : Fin S256x8.rank) ∈ (Dout).lhsBatch by decide), dif_pos (show (0 : Fin S256x8.rank) ∈ (Dout).lhsNonContracting by decide)]
  rfl
theorem out_l1 (j : S256x1024.Idx) (q : (Dout).contr.Idx) : ((Dout).lhsIdx j q 1).val = (q ⟨0, by decide⟩).val :=
  (Dout).lhsIdx_val_of_single rfl j q
theorem out_r0 (j : S256x1024.Idx) (q : (Dout).contr.Idx) : ((Dout).rhsIdx j q 0).val = (q ⟨0, by decide⟩).val :=
  (Dout).rhsIdx_val_of_single rfl j q
theorem out_r1 (j : S256x1024.Idx) (q : (Dout).contr.Idx) : ((Dout).rhsIdx j q 1).val = (j 1).val := by
  unfold DotDims.rhsIdx
  rw [dif_neg (show ¬(1 : Fin S8x1024.rank) ∈ (Dout).rhsBatch by decide), dif_pos (show (1 : Fin S8x1024.rank) ∈ (Dout).rhsNonContracting by decide)]
  rfl

/-- The output scale of the tile's row p at its column q. -/
theorem outScale_apply {φ₁ φ₂ : FTy} (L : FVec Ideal S256x8 φ₁) (C : FVec Ideal S8x1024 φ₂) (p : Fin 256) (q : Fin 1024) :
    FloatOps.matmul (Dout) none L C (constant (F := Ideal) S256x1024 .f32 0x00000000#32) (ix2 p q)
      = ∑ e : Fin 8, L (ix2 p e) * C (ix2 e q) :=
  DotInner.matmul_zero_apply (Dout) rfl rfl out_l0 out_l1 out_r0 out_r1 none L C p q
end OutScale

section Main
/-- (x ∘ ρ·a) against the block of signed weights, both along their channel axis: [256, 4096] against [1024, 4096]. -/
local notation "Dmain" => dot_S256x4096_S1024x4096_S256x1024_1_1_0_0_n_n

theorem main_l0 (j : S256x1024.Idx) (q : (Dmain).contr.Idx) : ((Dmain).lhsIdx j q 0).val = (j 0).val := by
  unfold DotDims.lhsIdx
  rw [dif_neg (show ¬(0 : Fin S256x4096.rank) ∈ (Dmain).lhsBatch by decide), dif_pos (show (0 : Fin S256x4096.rank) ∈ (Dmain).lhsNonContracting by decide)]
  rfl
theorem main_l1 (j : S256x1024.Idx) (q : (Dmain).contr.Idx) : ((Dmain).lhsIdx j q 1).val = (q ⟨0, by decide⟩).val :=
  (Dmain).lhsIdx_val_of_single rfl j q
theorem main_r0 (j : S256x1024.Idx) (q : (Dmain).contr.Idx) : ((Dmain).rhsIdx j q 0).val = (j 1).val := by
  unfold DotDims.rhsIdx
  rw [dif_neg (show ¬(0 : Fin S1024x4096.rank) ∈ (Dmain).rhsBatch by decide), dif_pos (show (0 : Fin S1024x4096.rank) ∈ (Dmain).rhsNonContracting by decide)]
  rfl
theorem main_r1 (j : S256x1024.Idx) (q : (Dmain).contr.Idx) : ((Dmain).rhsIdx j q 1).val = (q ⟨0, by decide⟩).val :=
  (Dmain).rhsIdx_val_of_single rfl j q

/-- The main contraction at the tile's entry (p, q). -/
theorem main_apply {φ₁ φ₂ : FTy} (Y : FVec Ideal S256x4096 φ₁) (Wt : FVec Ideal S1024x4096 φ₂) (p : Fin 256) (q : Fin 1024) :
    FloatOps.matmul (Dmain) none Y Wt (constant (F := Ideal) S256x1024 .f32 0x00000000#32) (ix2 p q)
      = ∑ h : Fin 4096, Y (ix2 p h) * Wt (ix2 q h) :=
  DotLastAxes.matmul_zero_apply (Dmain) rfl rfl main_l0 main_l1 main_r0 main_r1 none Y Wt p q
end Main

/-! ## The tile's entry -/

/-- Entry (p, q) of what the body stores, from the six blocks it loads. -/
theorem tile_apply (x : Vec Ideal S256x4096 .f32) (ρ : Vec Ideal S256x8 .f32) (a : Vec Ideal S8x4096 .f32)
    (w : Vec Ideal S1024x4096 .bf16) (c : Vec Ideal S8x1024 .f32) (β : Vec Ideal S1x1024 .f32) (p : Fin 256) (q : Fin 1024) :
    k0_pay1 (F := Ideal) x ρ a w c β (ix2 p q)
      = (∑ h : Fin 4096, (x (ix2 p h) * ∑ e : Fin 8, ρ (ix2 p e) * a (ix2 e h)) * w (ix2 q h))
          * (∑ e : Fin 8, ρ (ix2 p e) * c (ix2 e q)) + β (ix2 (0 : Fin 1) q) := by
  unfold k0_pay1
  simp only [shapeCast_self]
  rw [addf_apply, mulf_apply]
  simp only [matmul]
  rw [main_apply, outScale_apply, broadcastTo_1b_ab_apply]
  simp only [truncf_apply, mulf_apply, inScale_apply]

end Cert.RoutedLayer.Tile

end
-- ==== Proof.Layer.lean ====
/-
  The layer both programs compute, as one function of six arrays of extended reals.

  Rows r of activations X[r,·] (8192 rows of 4096 channels), a table S[o,·] of signed weights (4096 output
  channels by 4096 input channels), a bias b[o], routing weights R[r,·] over 8 experts, and two per-expert
  channel scales A[e,·] (input side) and B[e,·] (output side).  The entry at row r and output channel o is

      ( Σ_h ( X[r,h] · Σ_e R[r,e]·A[e,h] ) · S[o,h] ) · ( Σ_e R[r,e]·B[e,o] ) + b[o].

  Nothing here mentions a program: the two sides of the certificate are each shown to be this function of
  their own arrays, and then meet.
-/
import Idealize.ShloMosaic.PureOps.Ideal
import Idealize.ShloMosaic.Lib.ValueIdx

noncomputable section

open scoped BigOperators

namespace Cert.RoutedLayer

open Idealize.ShloMosaic Idealize.ShloMosaic.ValueIdx

/-- The input scale of row r at channel h: the routing weights of the row against column h of A. -/
def inScale (R : (⟨2, ![8192, 8]⟩ : Shape).Idx → EReal) (A : (⟨2, ![8, 4096]⟩ : Shape).Idx → EReal)
    (r : Fin 8192) (h : Fin 4096) : EReal :=
  ∑ e : Fin 8, R (ix2 r e) * A (ix2 e h)

/-- The entry of the layer at row r and output channel o. -/
def entry (X : (⟨2, ![8192, 4096]⟩ : Shape).Idx → EReal) (S : (⟨2, ![4096, 4096]⟩ : Shape).Idx → EReal)
    (b : (⟨1, ![4096]⟩ : Shape).Idx → EReal) (R : (⟨2, ![8192, 8]⟩ : Shape).Idx → EReal)
    (A B : (⟨2, ![8, 4096]⟩ : Shape).Idx → EReal) (r : Fin 8192) (o : Fin 4096) : EReal :=
  (∑ h : Fin 4096, (X (ix2 r h) * inScale R A r h) * S (ix2 o h)) * (∑ e : Fin 8, R (ix2 r e) * B (ix2 e o))
    + b (ix1 o)

/-- The row of an index of the [8192, 4096] result. -/
abbrev row (i : (⟨2, ![8192, 4096]⟩ : Shape).Idx) : Fin 8192 := ⟨(i 0).val, idx2_lt0 i⟩
/-- Its output channel. -/
abbrev chan (i : (⟨2, ![8192, 4096]⟩ : Shape).Idx) : Fin 4096 := ⟨(i 1).val, idx2_lt1 i⟩

/-- The layer as an array over [8192, 4096]. -/
def layer (X : (⟨2, ![8192, 4096]⟩ : Shape).Idx → EReal) (S : (⟨2, ![4096, 4096]⟩ : Shape).Idx → EReal)
    (b : (⟨1, ![4096]⟩ : Shape).Idx → EReal) (R : (⟨2, ![8192, 8]⟩ : Shape).Idx → EReal)
    (A B : (⟨2, ![8, 4096]⟩ : Shape).Idx → EReal) : (⟨2, ![8192, 4096]⟩ : Shape).Idx → EReal :=
  fun i => entry X S b R A B (row i) (chan i)

theorem layer_apply (X : (⟨2, ![8192, 4096]⟩ : Shape).Idx → EReal) (S : (⟨2, ![4096, 4096]⟩ : Shape).Idx → EReal)
    (b : (⟨1, ![4096]⟩ : Shape).Idx → EReal) (R : (⟨2, ![8192, 8]⟩ : Shape).Idx → EReal)
    (A B : (⟨2, ![8, 4096]⟩ : Shape).Idx → EReal) (r : Fin 8192) (o : Fin 4096) :
    layer X S b R A B (ix2 r o) = entry X S b R A B r o := rfl

end Cert.RoutedLayer

end
-- ==== Proof.TileInLayer.lean ====
/-
  A tile of the kernel is a tile of the layer.

  Cut the [8192, 4096] result into 32 × 4 tiles of 256 rows by 1024 output channels.  Tile (i, j) needs only the rows
  256·i … 256·i + 255 of the activations and of the routing weights, the rows 1024·j … 1024·j + 1023 of the signed weights
  (the output channels of the tile), the same columns of the output-scale table and of the bias, and the whole input-scale
  table.  If the six blocks a grid point loads are those restrictions, the entry (p, q) it stores is the layer's entry at
  row 256·i + p and output channel 1024·j + q.
-/
import proofs.«117203_j28982439313533_2_alg».proof.Proof.TileValue
import proofs.«117203_j28982439313533_2_alg».proof.Proof.Layer

noncomputable section

open scoped BigOperators

namespace Cert.RoutedLayer.Tile

open Cert.KernelIdeal Cert.KernelIdeal.Gen Idealize.ShloMosaic Idealize.ShloMosaic.ValueIdx Cert.RoutedLayer

/-- Row p of the i-th block of 256 rows. -/
abbrev blockRow (i : Nat) (hi : i ≤ 31) (p : Fin 256) : Fin 8192 := ⟨i * 256 + p.val, by have := p.isLt; omega⟩
/-- Output channel q of the j-th block of 1024 channels. -/
abbrev blockChan (j : Nat) (hj : j ≤ 3) (q : Fin 1024) : Fin 4096 := ⟨j * 1024 + q.val, by have := q.isLt; omega⟩

/-- The bias as the kernel finds it, a single row [1, 4096], read as a vector over the output channels. -/
abbrev rowVec (b2 : (⟨2, ![1, 4096]⟩ : Shape).Idx → EReal) : (⟨1, ![4096]⟩ : Shape).Idx → EReal :=
  fun o => b2 (ix2 (0 : Fin 1) ⟨(o 0).val, (o 0).isLt⟩)

/-- The blocks of tile (i, j) being the arrays' restrictions, its entry (p, q) is the layer's at (256·i + p, 1024·j + q). -/
theorem tile_in_layer (X : (⟨2, ![8192, 4096]⟩ : Shape).Idx → EReal) (S : (⟨2, ![4096, 4096]⟩ : Shape).Idx → EReal)
    (b2 : (⟨2, ![1, 4096]⟩ : Shape).Idx → EReal) (R : (⟨2, ![8192, 8]⟩ : Shape).Idx → EReal)
    (A B : (⟨2, ![8, 4096]⟩ : Shape).Idx → EReal)
    (x : Vec Ideal S256x4096 .f32) (ρ : Vec Ideal S256x8 .f32) (a : Vec Ideal S8x4096 .f32)
    (w : Vec Ideal S1024x4096 .bf16) (c : Vec Ideal S8x1024 .f32) (β : Vec Ideal S1x1024 .f32)
    (i j : Nat) (hi : i ≤ 31) (hj : j ≤ 3)
    (hx : ∀ (p : Fin 256) (h : Fin 4096), x (ix2 p h) = X (ix2 (blockRow i hi p) h))
    (hρ : ∀ (p : Fin 256) (e : Fin 8), ρ (ix2 p e) = R (ix2 (blockRow i hi p) e))
    (ha : ∀ (e : Fin 8) (h : Fin 4096), a (ix2 e h) = A (ix2 e h))
    (hw : ∀ (q : Fin 1024) (h : Fin 4096), w (ix2 q h) = S (ix2 (blockChan j hj q) h))
    (hc : ∀ (e : Fin 8) (q : Fin 1024), c (ix2 e q) = B (ix2 e (blockChan j hj q)))
    (hβ : ∀ q : Fin 1024, β (ix2 (0 : Fin 1) q) = b2 (ix2 (0 : Fin 1) (blockChan j hj q)))
    (p : Fin 256) (q : Fin 1024) :
    k0_pay1 (F := Ideal) x ρ a w c β (ix2 p q) = entry X S (rowVec b2) R A B (blockRow i hi p) (blockChan j hj q) := by
  rw [tile_apply]
  unfold entry inScale
  simp only [hx, hρ, ha, hw, hc, hβ]

end Cert.RoutedLayer.Tile

end
-- ==== Proof.TilesToArray.lean ====
/-
  From the tiles to the whole array.

  The grid has 4 × 32 points; point (j, i) works on tile (i, j) of the result: its rows are block i of the activations and
  of the routing weights, its output channels block j of the signed weights, of the output-scale table and of the bias, and
  it reads the input-scale table whole.  So what each point writes back is its tile of ONE array — the layer of the arrays
  as the region finds them — and since the 128 tiles cover [8192, 4096], that array is what the region leaves.
-/
import proofs.«117203_j28982439313533_2_alg».proof.Proof.Gen.KernelIdeal.Frame
import proofs.«117203_j28982439313533_2_alg».proof.Proof.TileInLayer
import Idealize.ShloMosaic.Lib.Pipeline.Value

set_option maxRecDepth 16384

noncomputable section

open scoped BigOperators

namespace Cert.RoutedLayer.Kernel

open Cert.KernelIdeal Cert.KernelIdeal.Gen Idealize.ShloMosaic Idealize.ShloMosaic.TcCoe Idealize.SL.Sem
open Idealize.ShloMosaic.ValueIdx Cert.RoutedLayer Cert.RoutedLayer.Tile
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the arrays the region finds: the rows, the signed weights, the bias row, the routing weights and the two
    channel-scale tables. -/
def found (c : Dev nD) : Buf (Elt Ideal) ((c : Thread nD τ).loc main_v17) :=
  layer (V m c main_v0) (V m c main_v16) (rowVec (V m c main_v1)) (V m c main_v14) (V m c main_arg4) (V m c main_arg5)

/-- Which block of its array each window holds at a point, against the output tile's two block indices; decided over the
    128 points. -/
theorem block_indices : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = win0_6.index t (1 : Fin 2)
    ∧ win0_3.index t (0 : Fin 2) = win0_6.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = win0_6.index t (1 : Fin 2)
    ∧ win0_6.index t (0 : Fin 2) ≤ 31 ∧ win0_6.index t (1 : Fin 2) ≤ 3 :=
  (by decide +kernel : ∀ t : Fin grid0.N, _)

/-- Every tile is some point's. -/
theorem tile_onto : ∀ (i : Fin 32) (j : Fin 4), ∃ t : Fin cfg0.N, win0_6.index t = ![i.val, j.val] :=
  (by decide +kernel : ∀ (i : Fin 32) (j : Fin 4), ∃ t : Fin grid0.N, win0_6.index t = ![i.val, j.val])

/-- WHAT POINT t WRITES BACK is its tile of the layer of the arrays the region finds. -/
theorem flushed_eq (c : Dev nD) (t : Fin cfg0.N) :
    (dats m 0 c).flushed 6 t = ((cfg0.win 6).blk t).view.read (Elt Ideal) (found m c) := by
  show (cfg0.win 6).cut (grid0.coords t) ((dats m 0 c).after 6 t) = _
  rw [after0_6]
  unfold out0_6
  rw [View.canon_unit_zero zero_offsets]
  simp only [View.ld_unit_zero (S := S256x4096) zero_offsets, View.ld_unit_zero (S := S256x8) zero_offsets,
    View.ld_unit_zero (S := S8x4096) zero_offsets, View.ld_unit_zero (S := S1024x4096) zero_offsets,
    View.ld_unit_zero (S := S8x1024) zero_offsets, View.ld_unit_zero (S := S1x1024) zero_offsets]
  obtain ⟨e00, e01, e10, e11, e20, e21, e30, e31, e40, e41, e50, e51, hi, hj⟩ := block_indices t
  have key : ∀ y : S256x1024.Idx,
      k0_pay1 (F := Ideal) (iblk m c 0 t) (iblk m c 3 t) (iblk m c 4 t) (iblk m c 1 t) (iblk m c 5 t) (iblk m c 2 t) y
        = found m c (((cfg0.win 6).blk t).view.emb y) := by
    intro y
    obtain ⟨p, q, rfl⟩ : ∃ (p : Fin 256) (q : Fin 1024), y = ix2 p q := ⟨y 0, y 1, eq_ix2 y⟩
    refine (tile_in_layer (V m c main_v0) (V m c main_v16) (V m c main_v1) (V m c main_v14) (V m c main_arg4) (V m c main_arg5)
      (iblk m c 0 t) (iblk m c 3 t) (iblk m c 4 t) (iblk m c 1 t) (iblk m c 5 t) (iblk m c 2 t)
      (win0_6.index t (0 : Fin 2)) (win0_6.index t (1 : Fin 2)) hi hj ?_ ?_ ?_ ?_ ?_ ?_ p q).trans ?_
    · intro p h
      show V m c main_v0 (((cfg0.win 0).blk t).view.emb (ix2 p h)) = V m c main_v0 _
      refine congrArg (V m c main_v0) (funext fun a => Fin.ext ?_)
      match a with
      | ⟨0, _⟩ => show win0_0.index t (0 : Fin 2) * 256 + 1 * p.val = win0_6.index t (0 : Fin 2) * 256 + p.val; omega
      | ⟨1, _⟩ => show win0_0.index t (1 : Fin 2) * 4096 + 1 * h.val = h.val; omega
    · intro p e
      show V m c main_v14 (((cfg0.win 3).blk t).view.emb (ix2 p e)) = V m c main_v14 _
      refine congrArg (V m c main_v14) (funext fun a => Fin.ext ?_)
      match a with
      | ⟨0, _⟩ => show win0_3.index t (0 : Fin 2) * 256 + 1 * p.val = win0_6.index t (0 : Fin 2) * 256 + p.val; omega
      | ⟨1, _⟩ => show win0_3.index t (1 : Fin 2) * 8 + 1 * e.val = e.val; omega
    · intro e h
      show V m c main_arg4 (((cfg0.win 4).blk t).view.emb (ix2 e h)) = V m c main_arg4 _
      refine congrArg (V m c main_arg4) (funext fun a => Fin.ext ?_)
      match a with
      | ⟨0, _⟩ => show win0_4.index t (0 : Fin 2) * 8 + 1 * e.val = e.val; omega
      | ⟨1, _⟩ => show win0_4.index t (1 : Fin 2) * 4096 + 1 * h.val = h.val; omega
    · intro q h
      show V m c main_v16 (((cfg0.win 1).blk t).view.emb (ix2 q h)) = V m c main_v16 _
      refine congrArg (V m c main_v16) (funext fun a => Fin.ext ?_)
      match a with
      | ⟨0, _⟩ => show win0_1.index t (0 : Fin 2) * 1024 + 1 * q.val = win0_6.index t (1 : Fin 2) * 1024 + q.val; omega
      | ⟨1, _⟩ => show win0_1.index t (1 : Fin 2) * 4096 + 1 * h.val = h.val; omega
    · intro e q
      show V m c main_arg5 (((cfg0.win 5).blk t).view.emb (ix2 e q)) = V m c main_arg5 _
      refine congrArg (V m c main_arg5) (funext fun a => Fin.ext ?_)
      match a with
      | ⟨0, _⟩ => show win0_5.index t (0 : Fin 2) * 8 + 1 * e.val = e.val; omega
      | ⟨1, _⟩ => show win0_5.index t (1 : Fin 2) * 1024 + 1 * q.val = win0_6.index t (1 : Fin 2) * 1024 + q.val; omega
    · intro q
      show V m c main_v1 (((cfg0.win 2).blk t).view.emb (ix2 (0 : Fin 1) q)) = V m c main_v1 _
      refine congrArg (V m c main_v1) (funext fun a => Fin.ext ?_)
      match a with
      | ⟨0, _⟩ => show win0_2.index t (0 : Fin 2) * 1 + 1 * 0 = 0; omega
      | ⟨1, _⟩ => show win0_2.index t (1 : Fin 2) * 1024 + 1 * q.val = win0_6.index t (1 : Fin 2) * 1024 + q.val; omega
    · have hr : row (((cfg0.win 6).blk t).view.emb (ix2 p q)) = blockRow (win0_6.index t (0 : Fin 2)) hi p :=
        Fin.ext (by show win0_6.index t (0 : Fin 2) * 256 + 1 * p.val = win0_6.index t (0 : Fin 2) * 256 + p.val; omega)
      have hc : chan (((cfg0.win 6).blk t).view.emb (ix2 p q)) = blockChan (win0_6.index t (1 : Fin 2)) hj q :=
        Fin.ext (by show win0_6.index t (1 : Fin 2) * 1024 + 1 * q.val = win0_6.index t (1 : Fin 2) * 1024 + q.val; omega)
      unfold found layer
      rw [hr, hc]
  funext y
  exact key y

/-- An index of the array is in point t's tile iff each coordinate is in the tile's range on its axis. -/
theorem mem_tile (t : Fin cfg0.N) (i : S8192x4096.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v17).slice (win0_6.rect t)).set ↔ _
  rw [View.set_slice_whole, Rect.mem_set_unit]
  exact Iff.rfl

/-- The tiles cover the array: index (r, o) lies in tile (r / 256, o / 1024). -/
theorem tiles_cover (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ := tile_onto ⟨(i 0).val / 256, by omega⟩ ⟨(i 1).val / 1024, by omega⟩
  have q0 : win0_6.index t (0 : Fin 2) = (i 0).val / 256 := congrFun ht 0
  have q1 : win0_6.index t (1 : Fin 2) = (i 1).val / 1024 := congrFun ht 1
  refine ⟨t, flush0_6 t, ?_⟩
  rw [mem_tile]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- THE ARRAY the region leaves: the layer of the arrays it found. -/
theorem final (c : Dev nD) : (dats m 0 c).arrAt 6 cfg0.N = found m c :=
  (dats m 0 c).arrAt_eq_of_cover 6 (found m c) (fun t _ => flushed_eq m c t) tiles_cover

end Cert.RoutedLayer.Kernel

end
-- ==== Proof.ReferenceLayer.lean ====
/-
  The reference computes the layer.

  Its host program forms the routing weights R (a softmax over 8 experts of the rows' scores), the input scale
  R·A, the output scale R·B, the signed weights sign(W), their transpose, and then
  ((X ∘ (R·A)) · sign(W)ᵀ) ∘ (R·B) + b, the bias broadcast along the rows.  Read at row r and output channel o, with each
  product of matrices a sum over its contracted index, this is the layer's entry at (r, o): the transpose swaps the
  two coordinates of sign(W), so the contracted channel h meets S[o, h].  The routing weights are taken as the
  reference's own stage and never opened.
-/
import proofs.«117203_j28982439313533_2_alg».proof.Proof.Gen.ReferenceIdeal.Read
import proofs.«117203_j28982439313533_2_alg».proof.Proof.Layer

noncomputable section

open scoped BigOperators

namespace Cert.RoutedLayer.Reference

open Cert.ReferenceIdeal Cert.ReferenceIdeal.Gen Cert.ReferenceIdeal.Read
open Idealize.ShloMosaic Idealize.ShloMosaic.ValueIdx Cert.RoutedLayer

/-! The operand indices the contractions and layout operations visit at entry (r, o), by coordinates. -/

theorem main_lhs (r : Fin 8192) (o : Fin 4096) (h : Fin 4096) : lidx_main_v19 (ix2 r o) h = ix2 r h :=
  funext fun a => by match a with | ⟨0, _⟩ => rfl | ⟨1, _⟩ => rfl
theorem main_rhs (r : Fin 8192) (o : Fin 4096) (h : Fin 4096) : ridx_main_v19 (ix2 r o) h = ix2 h o :=
  funext fun a => by match a with | ⟨0, _⟩ => rfl | ⟨1, _⟩ => rfl
theorem swap (h o : Fin 4096) : idx_main_v18 (ix2 h o) = ix2 o h :=
  funext fun a => by match a with | ⟨0, _⟩ => rfl | ⟨1, _⟩ => rfl
theorem in_lhs (r : Fin 8192) (h : Fin 4096) (e : Fin 8) : lidx_main_v14 (ix2 r h) e = ix2 r e :=
  funext fun a => by match a with | ⟨0, _⟩ => rfl | ⟨1, _⟩ => rfl
theorem in_rhs (r : Fin 8192) (h : Fin 4096) (e : Fin 8) : ridx_main_v14 (ix2 r h) e = ix2 e h :=
  funext fun a => by match a with | ⟨0, _⟩ => rfl | ⟨1, _⟩ => rfl
theorem out_lhs (r : Fin 8192) (o : Fin 4096) (e : Fin 8) : lidx_main_v15 (ix2 r o) e = ix2 r e :=
  funext fun a => by match a with | ⟨0, _⟩ => rfl | ⟨1, _⟩ => rfl
theorem out_rhs (r : Fin 8192) (o : Fin 4096) (e : Fin 8) : ridx_main_v15 (ix2 r o) e = ix2 e o :=
  funext fun a => by match a with | ⟨0, _⟩ => rfl | ⟨1, _⟩ => rfl
theorem bias_idx (r : Fin 8192) (o : Fin 4096) : idx_main_v21 (idx_main_v22 (ix2 r o)) = ix1 o :=
  funext fun a => by match a with | ⟨0, _⟩ => rfl

/-- The reference's last stage before its closing reshape is the layer of its own stages: the reshaped rows, the signed
    weights, the bias, its routing weights and the two channel scales. -/
theorem stage_eq_layer (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 x4 x5 : (⟨S8x4096, .f32⟩ : BufTy).Contents (Elt Ideal)) :
    val_main_v23 (F := Ideal) x0 x1 x2 x3 x4 x5
      = layer (val_main_v0 (F := Ideal) x0) (val_main_v16 (F := Ideal) x1) x2 (val_main_v13 (F := Ideal) x0 x3) x4 x5 := by
  funext i
  obtain ⟨r, o, rfl⟩ : ∃ (r : Fin 8192) (o : Fin 4096), i = ix2 r o := ⟨i 0, i 1, eq_ix2 i⟩
  rw [layer_apply, val_main_v23_apply, val_main_v20_apply, val_main_v19_apply, val_main_v15_apply, val_main_v22_apply,
    val_main_v21_apply]
  simp only [val_main_v17_apply, val_main_v14_apply, val_main_v18_apply, main_lhs, main_rhs, swap, in_lhs, in_rhs, out_lhs,
    out_rhs, bias_idx]
  rfl

end Cert.RoutedLayer.Reference

end
-- ==== Proof.AroundRegion.lean ====
/-
  Around the region: what the grid finds, and what the closing reshape reads.

  Before the region the host reshapes the activations into rows, reshapes the bias into a single row, forms the routing
  weights (the rows' scores against the gate, a softmax over the 8 experts) and takes the sign of the weights, narrowing
  its float format.  These are the very operations the reference applies, so each array the region finds is the
  reference's own stage of the same arguments — the routing weights in particular are the same term on both sides and
  are never opened —, a narrowing being the identity over the extended reals, and the bias row read along its one row
  being the bias.  The region leaves the layer of those arrays, which is therefore the reference's stage before its closing reshape;
  the kernel's own closing reshape then gives the reference's result.
-/
import proofs.«117203_j28982439313533_2_alg».proof.Proof.Gen.KernelIdeal.Frame
import proofs.«117203_j28982439313533_2_alg».proof.Proof.Gen.ReferenceIdeal.Read
import proofs.«117203_j28982439313533_2_alg».proof.Proof.TilesToArray
import proofs.«117203_j28982439313533_2_alg».proof.Proof.ReferenceLayer
import Idealize.ShloMosaic.Lib.StableHlo.Run
import Idealize.ShloMosaic.Lib.ValueLayout

set_option maxRecDepth 16384

noncomputable section

namespace Cert.RoutedLayer.Kernel

open Cert.KernelIdeal Cert.KernelIdeal.Gen Idealize.ShloMosaic Idealize.ShloMosaic.TcCoe Idealize.SL.Sem
open Idealize.ShloMosaic.ValueIdx Cert.RoutedLayer Cert.RoutedLayer.Tile Idealize.ShloMosaic.StableHlo
open Idealize.ShloMosaic.Pipeline (Dat)

variable (m : (ℓ : Loc nD τ sig) → Buf (Elt Ideal) ℓ) (ρ : Dev nD → PrngReg)

/-! ## The arrays the region finds -/

/-- The rows: the activations reshaped [4, 2048, 4096] → [8192, 4096]. -/
theorem found_rows (c : Dev nD) :
    (V m c main_v0 : (⟨2, ![8192, 4096]⟩ : Shape).Idx → EReal)
      = Cert.ReferenceIdeal.Read.val_main_v0 (F := Ideal) (m ((c : Thread nD τ).loc main_arg0)) := by
  show StableHlo.after hostOps0 (fun b => m (c, b)) (Proc.devRef .tc main_v0) = _
  after_results
  rfl

/-- The signed weights: the narrowing of their format is the identity. -/
theorem found_signs (c : Dev nD) :
    (V m c main_v16 : (⟨2, ![4096, 4096]⟩ : Shape).Idx → EReal)
      = Cert.ReferenceIdeal.Read.val_main_v16 (F := Ideal) (m ((c : Thread nD τ).loc main_arg1)) := by
  show StableHlo.after hostOps0 (fun b => m (c, b)) (Proc.devRef .tc main_v16) = _
  after_results
  rfl

/-- The routing weights: the same softmax of the same scores, operation for operation. -/
theorem found_routing (c : Dev nD) :
    (V m c main_v14 : (⟨2, ![8192, 8]⟩ : Shape).Idx → EReal)
      = Cert.ReferenceIdeal.Read.val_main_v13 (F := Ideal) (m ((c : Thread nD τ).loc main_arg0)) (m ((c : Thread nD τ).loc main_arg3)) := by
  show StableHlo.after hostOps0 (fun b => m (c, b)) (Proc.devRef .tc main_v14) = _
  after_results
  rfl

/-- The bias row, read along its one row, is the bias. -/
theorem found_bias (c : Dev nD) :
    rowVec (V m c main_v1) = (m ((c : Thread nD τ).loc main_arg2) : (⟨1, ![4096]⟩ : Shape).Idx → EReal) := by
  have e : (V m c main_v1 : (⟨2, ![1, 4096]⟩ : Shape).Idx → EReal)
      = shapeCast ⟨2, ![1, 4096]⟩ (m ((c : Thread nD τ).loc main_arg2) : (⟨1, ![4096]⟩ : Shape).Idx → EReal) shapeCasts_S4096_S1x4096 := by
    show StableHlo.after hostOps0 (fun b => m (c, b)) (Proc.devRef .tc main_v1) = _
    after_results
    rfl
  funext o
  obtain ⟨k, rfl⟩ : ∃ k : Fin 4096, o = ix1 k := ⟨o 0, eq_ix1 o⟩
  show (V m c main_v1 : (⟨2, ![1, 4096]⟩ : Shape).Idx → EReal) (ix2 (0 : Fin 1) k) = _
  rw [e, shapeCast_a_1a_apply]

/-- So the layer of the arrays the region finds is the reference's stage before its closing reshape, of the same arguments. -/
theorem found_eq_stage (c : Dev nD) :
    found m c = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold found
  rw [found_rows, found_signs, found_bias, found_routing, V_main_arg4, V_main_arg5]
  exact (Reference.stage_eq_layer _ _ _ _ _ _).symm

/-! ## The closing reshape -/

/-- What the program returns: the closing reshape of the array the region leaves, which is the reference's result of
    the same arguments. -/
theorem result_eq (c : Dev nD) :
    Pipeline.afterTail₀ cfgs (dats m) 0 (V0 m) [hostOps1] c main_v18
      = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = found m c :=
    (Pipeline.withArrays_arr spec0 launch0.win.arr_inj c _ _ 6).trans (final m c)
  rw [hw, found_eq_stage]
  rfl

end Cert.RoutedLayer.Kernel

end
-- ==== Proof.KernelRun.lean ====
/-
  The kernel's run, with its result named.

  Every weakly fair execution of the idealized kernel's program terminates; the array it returns is the closing reshape
  of what the region leaves, which is the reference's result of the same arguments, and the six argument arrays end as
  they began: the four the region does not stage are untouched by the host operations around it, and the two channel-scale
  tables are staged as inputs and never written back.
-/
import proofs.«117203_j28982439313533_2_alg».proof.Proof.AroundRegion

noncomputable section

namespace Cert.RoutedLayer.Kernel

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The frame run re-posted: the result at the reference's result of the arguments, the arguments unchanged. -/
theorem run : θ_run defs (onTc (τ := τ) (main (F := Ideal))) ⟨m, fun _ => 0, ρ⟩ fun r => ∀ c : Dev nD,
      r.2.mem ((c : Thread nD τ).loc main_v18)
          = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.RoutedLayer.Kernel

end
-- ==== Proof.lean ====
/-
  The kernel and its reference compute one function over the extended reals.

  Both take activations x [4, 2048, 4096], weights W [4096, 4096], a bias b [4096], a gate [8, 4096] and two per-expert
  channel-scale tables A, B [8, 4096].  With X the activations as 8192 rows and R the routing weights (the softmax over
  the 8 experts of the rows' scores against the gate), the result at row r and output channel o is

      ( Σ_h ( X[r,h] · Σ_e R[r,e]·A[e,h] ) · sign(W)[o,h] ) · ( Σ_e R[r,e]·B[e,o] ) + b[o],

  reshaped back to [4, 2048, 4096].  The reference forms this with whole-array products on the host.  The kernel forms R
  and sign(W) on the host with the same operations, then computes the result tile by tile, 256 rows by 1024 output
  channels at each of the 4 × 32 grid points; its narrowings to a shorter float format are the identity over the extended
  reals and each of its three matrix products from the zero splat is a plain sum, so a tile's entry is the displayed
  expression at its row and channel, and the tiles cover the array.  No law beyond reading both sides entry by entry
  is used: nothing is reassociated or distributed, so the finiteness of the inputs is not needed.

  The three frames: the two kernel programs' are the generated ones; the reference's is its generated run with the result
  dropped.  The idealization rewrote nothing, so it is preserved trivially.
-/
import proofs.«117203_j28982439313533_2_alg».proof.Defs
import proofs.«117203_j28982439313533_2_alg».proof.Proof.Gen.Kernel
import proofs.«117203_j28982439313533_2_alg».proof.Proof.Gen.Kernel.Skeleton
import proofs.«117203_j28982439313533_2_alg».proof.Proof.Gen.Kernel.Launch
import proofs.«117203_j28982439313533_2_alg».proof.Proof.Gen.Kernel.Points
import proofs.«117203_j28982439313533_2_alg».proof.Proof.Gen.Kernel.Frame
import proofs.«117203_j28982439313533_2_alg».proof.Proof.Gen.KernelIdeal
import proofs.«117203_j28982439313533_2_alg».proof.Proof.Gen.KernelIdeal.Skeleton
import proofs.«117203_j28982439313533_2_alg».proof.Proof.Gen.KernelIdeal.Launch
import proofs.«117203_j28982439313533_2_alg».proof.Proof.Gen.KernelIdeal.Points
import proofs.«117203_j28982439313533_2_alg».proof.Proof.Gen.KernelIdeal.Frame
import proofs.«117203_j28982439313533_2_alg».proof.Proof.Gen.ReferenceIdeal
import proofs.«117203_j28982439313533_2_alg».proof.Proof.Gen.ReferenceIdeal.Run
import proofs.«117203_j28982439313533_2_alg».proof.Proof.Gen.ReferenceIdeal.Read
import proofs.«117203_j28982439313533_2_alg».proof.Proof.Gen.Pre_finite_inputs
import proofs.«117203_j28982439313533_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result of the arguments they agree on. -/
theorem algebraic : Cert.algebraic_KernelIdeal_ReferenceIdeal := by
  intro m ρ m' ρ' _ hagree
  refine ⟨_, Cert.RoutedLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
